-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S1 : Shape := ⟨1, ![1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S1 : Shape := ⟨1, ![1]⟩
abbrev S11008 : Shape := ⟨1, ![11008]⟩
abbrev S8192x4096 : Shape := ⟨2, ![8192, 4096]⟩
abbrev S1x11008 : Shape := ⟨2, ![1, 11008]⟩
abbrev S1x1 : Shape := ⟨2, ![1, 1]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S8192x4096, .f32⟩
  | .hbm, ⟨5, _⟩ => ⟨S11008x4096, .bf16⟩
  | .hbm, ⟨6, _⟩ => ⟨S1x11008, .f32⟩
  | .hbm, ⟨7, _⟩ => ⟨S1x1, .f32⟩
  | .hbm, ⟨8, _⟩ => ⟨S8192x11008, .f32⟩
  | .hbm, ⟨9, _⟩ => ⟨S4x2048x11008, .f32⟩
  | .local _ .vmem, ⟨0, _⟩ => ⟨S1024x4096, .f32⟩
  | .local _ .vmem, ⟨1, _⟩ => ⟨S1024x4096, .f32⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1x1, .f32⟩
  | .local _ .vmem, ⟨7, _⟩ => ⟨S1024x256, .f32⟩
  | .local _ .vmem, ⟨8, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S11008_S1x11008 : S11008.ShapeCasts S1x11008
  shapeCasts_S1_S1x1 : S1.ShapeCasts S1x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S1 : Shape := ⟨1, ![1]⟩
abbrev S11008 : Shape := ⟨1, ![11008]⟩
abbrev S_ : Shape := ⟨0, ![]⟩
abbrev S4x2048x11008 : Shape := ⟨3, ![4, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S4x2048x11008, .f32⟩
  | .hbm, ⟨9, _⟩ => ⟨S1x1x11008, .f32⟩
  | .hbm, ⟨10, _⟩ => ⟨S4x2048x11008, .f32⟩
  | .hbm, ⟨11, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1_S_ : S1.ShapeCasts S_
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Grid.lean ====
/-
  Where each window's block sits at a grid point.

  The grid is 8 × 43, walked with the second axis fastest: point number `t` is (t / 43, t mod 43). The
  output block at a point is (t / 43, t mod 43); the activation window follows the row block, the weight and
  bias windows follow the column block, each on its one moving axis, and the scale window does not move.
  These are facts about 344 points, decided point by point.
-/
import proofs.«112003_j79018808312185_2_alg».proof.Proof.Gen.KernelIdeal.Launch

noncomputable section

namespace Cert.KernelIdeal.Grid

open Cert.KernelIdeal Cert.KernelIdeal.Gen Idealize.ShloMosaic

/-- The output's block at point `t` is (t / 43, t mod 43). -/
theorem out_index : ∀ t : Fin cfg0.N,
    win0_4.index t (0 : Fin 2) = t.val / 43 ∧ win0_4.index t (1 : Fin 2) = t.val % 43 :=
  (by decide +kernel : ∀ t : Fin grid0.N, _)

/-- The input windows' blocks, relative to the output's. -/
theorem in_index : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0 :=
  (by decide +kernel : ∀ t : Fin grid0.N, _)

end Cert.KernelIdeal.Grid

end
-- ==== Proof.Payload.lean ====
/-
  The value one grid point stores, entry by entry.

  At a grid point the kernel body holds a block of 1024 rows of the activations (all 4096 columns), a block
  of 256 rows of the converted weights, the matching 256 bias entries and the scale. It contracts the two
  blocks along their shared axis of 4096, multiplies every entry by the scale and adds the bias row to every
  row. So the entry (p, q) of what it stores is

      (∑ k, x[p, k] · w[q, k]) · scale + bias[q].

  The narrowing of the activations to a shorter float format before the product is the identity on exact
  values, and the product accumulates into zero, so nothing else is left of the body.
-/
import proofs.«112003_j79018808312185_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The operand indices of the block product

Both operands are contracted along their second axis; the first axis of each is kept. So at output (p, q)
and contraction position `k` the left operand is read at (p, k) and the right one at (q, k). -/

theorem lhs_row (i : S1024x256.Idx) (κ : dot_S1024x4096_S256x4096_S1024x256_1_1_0_0_n_n.contr.Idx) :
    (dot_S1024x4096_S256x4096_S1024x256_1_1_0_0_n_n.lhsIdx i κ 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl
theorem lhs_col (i : S1024x256.Idx) (κ : dot_S1024x4096_S256x4096_S1024x256_1_1_0_0_n_n.contr.Idx) :
    (dot_S1024x4096_S256x4096_S1024x256_1_1_0_0_n_n.lhsIdx i κ 1).val = (κ ⟨0, by decide⟩).val :=
  dot_S1024x4096_S256x4096_S1024x256_1_1_0_0_n_n.lhsIdx_val_of_single rfl i κ
theorem rhs_row (i : S1024x256.Idx) (κ : dot_S1024x4096_S256x4096_S1024x256_1_1_0_0_n_n.contr.Idx) :
    (dot_S1024x4096_S256x4096_S1024x256_1_1_0_0_n_n.rhsIdx i κ 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl
theorem rhs_col (i : S1024x256.Idx) (κ : dot_S1024x4096_S256x4096_S1024x256_1_1_0_0_n_n.contr.Idx) :
    (dot_S1024x4096_S256x4096_S1024x256_1_1_0_0_n_n.rhsIdx i κ 1).val = (κ ⟨0, by decide⟩).val :=
  dot_S1024x4096_S256x4096_S1024x256_1_1_0_0_n_n.rhsIdx_val_of_single rfl i κ

/-- The block product into a zero accumulator, at (p, q): the sum over the shared axis of the products of
    row `p` of the left block with row `q` of the right block. -/
theorem product_at (l : FVec Ideal S1024x4096 .bf16) (r : FVec Ideal S256x4096 .bf16) (p : Fin 1024) (q : Fin 256) :
    matmul dot_S1024x4096_S256x4096_S1024x256_1_1_0_0_n_n none l r (constant (F := Ideal) S1024x256 .f32 0x00000000#32) (ix2 p q)
      = ∑ k : Fin 4096, l (ix2 p k) * r (ix2 q k) := by
  simp only [matmul]
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k :=
    funext fun a => Fin.ext (by
      match a with
      | ⟨0, _⟩ => exact lhs_row _ _
      | ⟨1, _⟩ => exact (lhs_col _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The bias row spread over the 1024 rows of the block, at (p, q): the row's entry `q`. -/
theorem bias_at (v : FVec Ideal S1x256 .f32) (p : Fin 1024) (q : Fin 256) :
    broadcastTo S1024x256 v broadcasts_S1x256_S1024x256 (ix2 p q) = v (ix2 (0 : Fin 1) q) :=
  broadcastTo_apply v broadcasts_S1x256_S1024x256 (ix2 p q) (ix2 (0 : Fin 1) q) (fun a => by
    match a with
    | ⟨0, _⟩ => rfl
    | ⟨1, _⟩ => rfl)

/-- The scale, taken out of its [1, 1] block: the block's one entry. -/
theorem scale_at (v : FVec Ideal S1x1 .f32) :
    extractAt ![0, 0] v inpos_S1x1_p0_0 = v (ix2 (0 : Fin 1) (0 : Fin 1)) := by
  unfold extractAt
  exact congrArg v (funext fun a => Fin.ext (by
    match a with
    | ⟨0, _⟩ => rfl
    | ⟨1, _⟩ => rfl))

/-- What the body stores, at (p, q). -/
theorem stored_at (x0 : FVec Ideal S1024x4096 .f32) (x1 : FVec Ideal S256x4096 .bf16) (x3 : FVec Ideal S1x1 .f32) (x2 : FVec Ideal S1x256 .f32)
    (p : Fin 1024) (q : Fin 256) :
    k0_pay1 (F := Ideal) x0 x1 x3 x2 (ix2 p q)
      = (∑ k : Fin 4096, x0 (ix2 p k) * x1 (ix2 q k)) * x3 (ix2 (0 : Fin 1) (0 : Fin 1)) + x2 (ix2 (0 : Fin 1) q) := by
  unfold k0_pay1
  rw [shapeCast_self, shapeCast_self, shapeCast_self, addf_apply, mulf_apply, broadcast_apply, product_at, bias_at, scale_at]
  rfl

end Cert.KernelIdeal.Block

end
-- ==== Proof.Spec.lean ====
/-
  What the quantized linear layer computes, index by index.

  The arguments are an activation array `x` of shape [4, 2048, 4096], an integer weight matrix `w` of
  shape [11008, 4096], a one-entry scale and a bias of length 11008. The result at (b, s, o) is

      (∑ k, x[b, s, k] · w[o, k]) · scale + bias[o]

  with each weight read as the integer it is. `linear` is that function over the argument arrays.
  `rowsOut` is the same computation as the kernel meets it: the batch and sequence axes merged into
  one axis of 8192 rows, the weights already converted, the bias a row [1, 11008] and the scale a
  [1, 1] array.
-/
import Idealize.ShloMosaic.PureOps.Ideal
import Idealize.ShloMosaic.Lib.ValueIdx

noncomputable section

namespace Cert.Linear

open Idealize.ShloMosaic Idealize.ShloMosaic.ValueIdx

/-- The layer over the merged rows: entry (r, o) is the product of row `r` of `X` with row `o` of `W`,
    times the scale, plus the bias at `o`. -/
def rowsOut (X : (⟨2, ![8192, 4096]⟩ : Shape).Idx → EReal) (W : (⟨2, ![11008, 4096]⟩ : Shape).Idx → EReal)
    (B : (⟨2, ![1, 11008]⟩ : Shape).Idx → EReal) (S : (⟨2, ![1, 1]⟩ : Shape).Idx → EReal) :
    (⟨2, ![8192, 11008]⟩ : Shape).Idx → EReal :=
  fun e => (∑ k : Fin 4096, X (ix2 (e 0) k) * W (ix2 (e 1) k)) * S (ix2 (0 : Fin 1) (0 : Fin 1)) + B (ix2 (0 : Fin 1) (e 1))

/-- The layer over the argument arrays. -/
def linear (x : (⟨3, ![4, 2048, 4096]⟩ : Shape).Idx → EReal) (w : (⟨2, ![11008, 4096]⟩ : Shape).Idx → BitVec 32)
    (sc : (⟨1, ![1]⟩ : Shape).Idx → EReal) (b : (⟨1, ![11008]⟩ : Shape).Idx → EReal) :
    (⟨3, ![4, 2048, 11008]⟩ : Shape).Idx → EReal :=
  fun i => (∑ k : Fin 4096, x (ix3 (i 0) (i 1) k) * (((w (ix2 (i 2) k)).toInt : ℝ) : EReal)) * sc (ix1 (0 : Fin 1))
    + b (ix1 (i 2))

end Cert.Linear

end
-- ==== Proof.Blocks.lean ====
/-
  What a grid point writes back.

  Point (i, j) of the 8 × 43 grid holds rows 1024·i … 1024·i + 1023 of the merged activations, rows
  256·j … 256·j + 255 of the converted weights and the same 256 entries of the bias row, and writes back the
  block (i, j) of the merged result, 1024 rows by 256 columns. Entry (p, q) of that block is the layer's
  entry (1024·i + p, 256·j + q): the stored value reads row `p` of the activation block, which is row
  1024·i + p of the array, and row `q` of the weight block, which is row 256·j + q of the array.
-/
import proofs.«112003_j79018808312185_2_alg».proof.Proof.Gen.KernelIdeal.Frame
import proofs.«112003_j79018808312185_2_alg».proof.Proof.Grid
import proofs.«112003_j79018808312185_2_alg».proof.Proof.Payload
import proofs.«112003_j79018808312185_2_alg».proof.Proof.Spec
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Cert.Linear Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The stored value at (p, q) is the layer's entry (r, o), whenever row `p` of the activation block is row `r` of the
    array, row `q` of the weight block is row `o` of the array, the bias block's entry `q` is the row's entry `o`, and
    the scale block is the scale cell. -/
theorem stored_is_rowsOut
    (X : S8192x4096.Idx → EReal) (W : S11008x4096.Idx → EReal) (B : S1x11008.Idx → EReal) (S : S1x1.Idx → EReal)
    (x0 : FVec Ideal S1024x4096 .f32) (x1 : FVec Ideal S256x4096 .bf16) (x2 : FVec Ideal S1x256 .f32) (x3 : FVec Ideal S1x1 .f32)
    (p : Fin 1024) (q : Fin 256) (r : Fin 8192) (o : Fin 11008)
    (h0 : ∀ k : Fin 4096, x0 (ix2 p k) = X (ix2 r k))
    (h1 : ∀ k : Fin 4096, x1 (ix2 q k) = W (ix2 o k))
    (h2 : x2 (ix2 (0 : Fin 1) q) = B (ix2 (0 : Fin 1) o))
    (h3 : x3 (ix2 (0 : Fin 1) (0 : Fin 1)) = S (ix2 (0 : Fin 1) (0 : Fin 1))) :
    k0_pay1 (F := Ideal) x0 x1 x3 x2 (ix2 p q) = rowsOut X W B S (ix2 r o) := by
  rw [Block.stored_at, h2, h3]
  unfold rowsOut
  refine congrArg (· + _) (congrArg (· * _) (Finset.sum_congr rfl fun k _ => ?_))
  rw [h0 k, h1 k]

/-- WHAT A POINT WRITES BACK is its block of the layer over the merged rows, of the arrays as the region finds them. -/
theorem flushed_eq (c : Dev nD) (t : Fin cfg0.N) :
    (dats m 0 c).flushed 4 t = ((cfg0.win 4).blk t).view.read (Elt Ideal)
      (rowsOut (V m c main_v0) (V m c main_v1) (V m c main_v2) (V m c main_v3)) := by
  show (cfg0.win 4).cut (grid0.coords t) ((dats m 0 c).after 4 t) = _
  rw [after0_4]
  unfold out0_4
  rw [View.canon_unit_zero zero_offsets]
  simp only [View.ld_unit_zero (S := S1024x4096) zero_offsets, View.ld_unit_zero (S := S256x4096) zero_offsets,
    View.ld_unit_zero (S := S1x1) zero_offsets, View.ld_unit_zero (S := S1x256) zero_offsets]
  obtain ⟨e0, e1, e2, e3, e4, e5, e6, e7⟩ := Grid.in_index t
  obtain ⟨o0, o1⟩ := Grid.out_index t
  have ht : t.val < 344 := lt_of_lt_of_eq t.isLt N_0
  funext j
  obtain ⟨p, q, rfl⟩ : ∃ (p : Fin 1024) (q : Fin 256), j = ix2 p q := ⟨j 0, j 1, eq_ix2 j⟩
  have hr : win0_4.index t (0 : Fin 2) * 1024 + p.val < 8192 := by have := p.isLt; omega
  have ho : win0_4.index t (1 : Fin 2) * 256 + q.val < 11008 := by have := q.isLt; omega
  show k0_pay1 (F := Ideal) (iblk m c 0 t) (iblk m c 1 t) (iblk m c 3 t) (iblk m c 2 t) (ix2 p q)
    = rowsOut (V m c main_v0) (V m c main_v1) (V m c main_v2) (V m c main_v3) (((cfg0.win 4).blk t).view.emb (ix2 p q))
  have he : ((cfg0.win 4).blk t).view.emb (ix2 p q)
      = ix2 (⟨win0_4.index t (0 : Fin 2) * 1024 + p.val, hr⟩ : Fin 8192) (⟨win0_4.index t (1 : Fin 2) * 256 + q.val, ho⟩ : Fin 11008) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 256 + 1 * q.val = win0_4.index t (1 : Fin 2) * 256 + q.val; omega
  rw [he]
  refine stored_is_rowsOut (V m c main_v0) (V m c main_v1) (V m c main_v2) (V m c main_v3)
    (iblk m c 0 t) (iblk m c 1 t) (iblk m c 2 t) (iblk m c 3 t) p q _ _ ?_ ?_ ?_ ?_
  · intro k
    show V m c main_v0 (((cfg0.win 0).blk t).view.emb (ix2 p k)) = V m c main_v0 (ix2 _ k)
    refine congrArg (V m c main_v0) (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 4096 + 1 * k.val = k.val; omega
  · intro k
    show V m c main_v1 (((cfg0.win 1).blk t).view.emb (ix2 q k)) = V m c main_v1 (ix2 _ k)
    refine congrArg (V m c main_v1) (funext fun a => Fin.ext ?_)
    match a with
    | ⟨0, _⟩ => show win0_1.index t (0 : Fin 2) * 256 + 1 * q.val = win0_4.index t (1 : Fin 2) * 256 + q.val; omega
    | ⟨1, _⟩ => show win0_1.index t (1 : Fin 2) * 4096 + 1 * k.val = k.val; omega
  · show V m c main_v2 (((cfg0.win 2).blk t).view.emb (ix2 (0 : Fin 1) q)) = V m c main_v2 (ix2 (0 : Fin 1) _)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 256 + 1 * q.val = win0_4.index t (1 : Fin 2) * 256 + q.val; omega
  · show V m c main_v3 (((cfg0.win 3).blk t).view.emb (ix2 (0 : Fin 1) (0 : Fin 1))) = V m c main_v3 (ix2 (0 : Fin 1) (0 : Fin 1))
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega

end Cert.KernelIdeal.Blocks

end
-- ==== Proof.Cover.lean ====
/-
  The 8 × 43 blocks tile the merged result.

  Block (i, j) holds the entries with row in [1024·i, 1024·i + 1024) and column in [256·j, 256·j + 256). An
  entry (r, o) of the 8192 × 11008 result therefore lies in the block of its quotients (r / 1024, o / 256),
  which is the block of point number (r / 1024) · 43 + o / 256; and every point writes its block back.
-/
import proofs.«112003_j79018808312185_2_alg».proof.Proof.Gen.KernelIdeal.Frame
import proofs.«112003_j79018808312185_2_alg».proof.Proof.Grid
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- An entry of the merged result is in a point's block iff each coordinate is in the block's range on its axis. -/
theorem mem_blk (t : Fin cfg0.N) (i : S8192x11008.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v4).slice (win0_4.rect t)).set ↔ _
  rw [View.set_slice_whole, Rect.mem_set_unit]
  exact Iff.rfl

/-- Every entry of the merged result is in the block some point writes back. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  have hN : cfg0.N = 344 := N_0
  obtain ⟨t, ht⟩ : ∃ t : Fin cfg0.N, t.val = (i 0).val / 1024 * 43 + (i 1).val / 256 :=
    ⟨⟨(i 0).val / 1024 * 43 + (i 1).val / 256, by rw [hN]; omega⟩, rfl⟩
  obtain ⟨o0, o1⟩ := Grid.out_index t
  rw [ht] at o0 o1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

end Cert.KernelIdeal.Cover

end
-- ==== Proof.Rows.lean ====
/-
  The merged result after the run.

  Every point writes back its block of the layer over the merged rows, and the blocks cover the array: after
  the last point the whole array is that layer, of the four arrays as the region found them.
-/
import proofs.«112003_j79018808312185_2_alg».proof.Proof.Blocks
import proofs.«112003_j79018808312185_2_alg».proof.Proof.Cover

noncomputable section

namespace Cert.KernelIdeal.Rows

open Cert.KernelIdeal Cert.KernelIdeal.Gen Cert.Linear Idealize.ShloMosaic Idealize.ShloMosaic.TcCoe Idealize.SL.Sem
open Idealize.ShloMosaic.Pipeline (Dat)

variable (m : (ℓ : Loc nD τ sig) → Buf (Elt Ideal) ℓ)

theorem result_rows (c : Dev nD) :
    (dats m 0 c).arrAt 4 cfg0.N = rowsOut (V m c main_v0) (V m c main_v1) (V m c main_v2) (V m c main_v3) :=
  (dats m 0 c).arrAt_eq_of_cover 4 _ (fun t _ => Blocks.flushed_eq m c t) Cover.covered

end Cert.KernelIdeal.Rows

end
-- ==== Proof.Entry.lean ====
/-
  What the region finds in the four arrays it stages.

  The host lines before the region write each staged array from one argument: the activations re-laid as
  8192 rows, the weights converted to floats, the bias re-laid as a row and the scale as a [1, 1] array.
  Nothing else writes them before the region starts.
-/
import proofs.«112003_j79018808312185_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The merged activations at the region's entry. -/
theorem rows_eq (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results <;> rfl

/-- The converted weights. -/
theorem weights_eq (c : Dev nD) :
    (V m c main_v1 : S11008x4096.Idx → EReal)
      = sitofp (F := Ideal) .bf16 (m ((c : Thread nD τ).loc main_arg1)) := by
  show StableHlo.after hostOps0 (fun b => m (c, b)) (Proc.devRef .tc main_v1) = _
  after_results <;> rfl

/-- The bias row. -/
theorem bias_eq (c : Dev nD) :
    (V m c main_v2 : S1x11008.Idx → EReal)
      = shapeCast S1x11008 (m ((c : Thread nD τ).loc main_arg3)) shapeCasts_S11008_S1x11008 := by
  show StableHlo.after hostOps0 (fun b => m (c, b)) (Proc.devRef .tc main_v2) = _
  after_results <;> rfl

/-- The scale cell. -/
theorem scale_eq (c : Dev nD) :
    (V m c main_v3 : S1x1.Idx → EReal)
      = shapeCast S1x1 (m ((c : Thread nD τ).loc main_arg2)) shapeCasts_S1_S1x1 := by
  show StableHlo.after hostOps0 (fun b => m (c, b)) (Proc.devRef .tc main_v3) = _
  after_results <;> rfl

end Cert.KernelIdeal.Entry

end
-- ==== Proof.Layout.lean ====
/-
  The re-layings around the region.

  Before the region the program merges the batch and sequence axes of the activations into one axis of
  8192 rows, converts the integer weights to floats, lays the bias out as a row [1, 11008] and the scale as a
  [1, 1] array; after it, it splits the 8192 rows of the result back into [4, 2048]. A re-laying keeps
  the row-major position of every entry, so row `b · 2048 + s` of the merged arrays is entry (b, s) of the
  split ones. Read through these, the layer over the merged rows is the layer over the argument arrays.
-/
import proofs.«112003_j79018808312185_2_alg».proof.Proof.Gen.KernelIdeal
import proofs.«112003_j79018808312185_2_alg».proof.Proof.Spec
import Idealize.ShloMosaic.Lib.ValueIdx
import Idealize.ShloMosaic.Lib.Pipeline.Value

noncomputable section

namespace Cert.KernelIdeal.Layout

open Cert.KernelIdeal Cert.KernelIdeal.Gen Cert.Linear Idealize.ShloMosaic Idealize.ShloMosaic.ValueIdx

/-- Row `b · 2048 + s` of the merged activations is entry (b, s) of the argument. -/
theorem rows_at (x : S4x2048x4096.Idx → EReal) (b : Fin 4) (s : Fin 2048) (k : Fin 4096) (r : Fin 8192)
    (hr : r.val = b.val * 2048 + s.val) :
    shapeCast S8192x4096 x shapeCasts_S4x2048x4096_S8192x4096 (ix2 r k) = x (ix3 b s k) :=
  shapeCast_apply x shapeCasts_S4x2048x4096_S8192x4096 (ix2 r k) (ix3 b s k) (by
    rw [Shape.rowMajor_val_three, Shape.rowMajor_val_two]
    show (b.val * 2048 + s.val) * 4096 + k.val = r.val * 4096 + k.val
    rw [hr])

/-- The bias laid out as a row: entry (0, o) is entry `o`. -/
theorem bias_row_at (v : S11008.Idx → EReal) (o : Fin 11008) :
    shapeCast S1x11008 v shapeCasts_S11008_S1x11008 (ix2 (0 : Fin 1) o) = v (ix1 o) :=
  shapeCast_apply v shapeCasts_S11008_S1x11008 (ix2 (0 : Fin 1) o) (ix1 o) (by
    rw [Shape.rowMajor_val_one, Shape.rowMajor_val_two]
    show o.val = 0 * 11008 + o.val
    omega)

/-- The scale laid out as a [1, 1] array: its one entry. -/
theorem scale_cell_at (v : S1.Idx → EReal) :
    shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1)) (by
    rw [Shape.rowMajor_val_one, Shape.rowMajor_val_two]
    rfl)

/-- The result split back: entry (b, s, o) is entry (b · 2048 + s, o) of the merged result. -/
theorem split_at (A : S8192x11008.Idx → EReal) (b : Fin 4) (s : Fin 2048) (o : Fin 11008) (r : Fin 8192)
    (hr : r.val = b.val * 2048 + s.val) :
    shapeCast S4x2048x11008 A shapeCasts_S8192x11008_S4x2048x11008 (ix3 b s o) = A (ix2 r o) :=
  shapeCast_apply A shapeCasts_S8192x11008_S4x2048x11008 (ix3 b s o) (ix2 r o) (by
    rw [Shape.rowMajor_val_three, Shape.rowMajor_val_two]
    show r.val * 11008 + o.val = (b.val * 2048 + s.val) * 11008 + o.val
    rw [hr])

/-- THE LAYER THROUGH THE RE-LAYINGS: the layer over the merged rows, of the merged activations, the converted
    weights, the bias row and the scale cell, split back into [4, 2048, 11008], is the layer over the
    argument arrays. -/
theorem split_rowsOut (x : S4x2048x4096.Idx → EReal) (w : S11008x4096.Idx → BitVec 32) (sc : S1.Idx → EReal) (bias : S11008.Idx → EReal) :
    shapeCast S4x2048x11008
        (rowsOut (shapeCast S8192x4096 x shapeCasts_S4x2048x4096_S8192x4096)
          (sitofp (F := Ideal) .bf16 w)
          (shapeCast S1x11008 bias shapeCasts_S11008_S1x11008)
          (shapeCast S1x1 sc shapeCasts_S1_S1x1))
        shapeCasts_S8192x11008_S4x2048x11008
      = linear x w sc bias := by
  funext i
  obtain ⟨b, s, o, rfl⟩ : ∃ (b : Fin 4) (s : Fin 2048) (o : Fin 11008), i = ix3 b s o := ⟨i 0, i 1, i 2, eq_ix3 i⟩
  have hlt : b.val * 2048 + s.val < 8192 := by have := b.isLt; have := s.isLt; omega
  rw [split_at _ b s o ⟨b.val * 2048 + s.val, hlt⟩ rfl]
  unfold rowsOut linear
  rw [bias_row_at, scale_cell_at]
  refine congrArg (· + _) (congrArg (· * _) (Finset.sum_congr rfl fun k _ => ?_))
  show shapeCast S8192x4096 x shapeCasts_S4x2048x4096_S8192x4096 (ix2 ⟨b.val * 2048 + s.val, hlt⟩ k) * _ = _
  rw [rows_at x b s k ⟨b.val * 2048 + s.val, hlt⟩ rfl]
  rfl

end Cert.KernelIdeal.Layout

end
-- ==== Proof.KernelRun.lean ====
/-
  The kernel program computes the layer.

  After the region the program splits the 8192 rows of the merged result back into [4, 2048]; that line is
  the last write of the result array. The merged result is the layer over the merged rows of what the host
  lines before the region prepared, and read through those re-layings it is the layer over the argument
  arrays themselves. No input needs to be finite for this side: the kernel's expression is the layer's own.
-/
import proofs.«112003_j79018808312185_2_alg».proof.Proof.Rows
import proofs.«112003_j79018808312185_2_alg».proof.Proof.Entry
import proofs.«112003_j79018808312185_2_alg».proof.Proof.Layout
import Idealize.ShloMosaic.Lib.StableHlo.Run

noncomputable section

namespace Cert.KernelIdeal.Result

open Cert.KernelIdeal Cert.KernelIdeal.Gen Cert.Linear Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The result array after the host line behind the region: the merged result, split back. -/
theorem tail_eq (c : Dev nD) :
    Pipeline.afterTail₀ cfgs (dats m) 0 (V0 m) [hostOps1] c main_v5
      = shapeCast S4x2048x11008 ((dats m 0 c).arrAt 4 cfg0.N) shapeCasts_S8192x11008_S4x2048x11008 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = (dats m 0 c).arrAt 4 cfg0.N := Pipeline.withArrays_arr spec0 launch0.win.arr_inj c (V0 m c) _ 4
  rw [hw]
  rfl

/-- THE RESULT ARRAY after the whole program: the layer over the argument arrays as launched. -/
theorem result_eq (c : Dev nD) :
    Pipeline.afterTail₀ cfgs (dats m) 0 (V0 m) [hostOps1] c main_v5
      = linear (m ((c.tc : Thread nD τ).loc main_arg0)) (m ((c.tc : Thread nD τ).loc main_arg1))
          (m ((c.tc : Thread nD τ).loc main_arg2)) (m ((c.tc : Thread nD τ).loc main_arg3)) := by
  rw [tail_eq, Rows.result_rows, Entry.rows_eq, Entry.weights_eq, Entry.bias_eq, Entry.scale_eq]
  exact Layout.split_rowsOut _ _ _ _

/-- The kernel program's run: every weakly fair execution ends with the result array at the layer of the launch
    contents of the arguments, and the arguments unchanged. -/
theorem run : θ_run defs (onTc (τ := τ) (main (F := Ideal))) ⟨m, fun _ => 0, ρ⟩ fun r => ∀ c : Dev nD,
      r.2.mem ((c.tc : Thread nD τ).loc main_v5)
        = linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ScaleLaw.lean ====
/-
  Moving a common factor across a finite sum, on the extended reals.

  On the extended reals multiplication does not distribute over addition in general: a sum that meets
  both infinities absorbs, and a factor moved across it changes the result. When every term of the sum
  and the factor are real numbers nothing of that can happen: the products and the sum are the real
  ones, and there the law is the distributive law of the field. That is the one place where a linear
  layer that scales its weights first and one that scales its accumulated products afterwards differ
  as expressions, and the one place where the finiteness of the inputs is used.
-/
import Idealize.ShloMosaic.PureOps.Ideal

namespace Cert.Linear

/-- The inclusion of the reals in the extended reals carries a finite sum to the sum of the images. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- For real entries `a k`, integer weights `n k` and a real scale `s`:
    `∑ a k · (n k · s) = (∑ a k · n k) · s` — scaling each weight before the contraction, or the
    contracted sum after it, is the same number. -/
theorem sum_mul_scale {K : Type} [Fintype K] (a : K → EReal) (n : K → ℤ) (s : EReal)
    (ha : ∀ k, ∃ r : ℝ, a k = (r : EReal)) (hs : ∃ σ : ℝ, s = (σ : EReal)) :
    ∑ k, a k * (((n k : ℝ) : EReal) * s) = (∑ k, a k * ((n k : ℝ) : EReal)) * s := by
  choose r hr using ha
  obtain ⟨σ, rfl⟩ := hs
  have hl : ∀ k, a k * (((n k : ℝ) : EReal) * (σ : EReal)) = ((r k * ((n k : ℝ) * σ) : ℝ) : EReal) := fun k => by
    rw [hr k, ← EReal.coe_mul, ← EReal.coe_mul]
  have hm : ∀ k, a k * ((n k : ℝ) : EReal) = ((r k * (n k : ℝ) : ℝ) : EReal) := fun k => by
    rw [hr k, ← EReal.coe_mul]
  rw [Finset.sum_congr rfl (fun k _ => hl k), Finset.sum_congr rfl (fun k _ => hm k), ← coe_sum, ← coe_sum,
    ← EReal.coe_mul, Finset.sum_mul]
  exact congrArg _ (Finset.sum_congr rfl fun k _ => by ring)

end Cert.Linear
-- ==== Proof.RefValue.lean ====
/-
  The reference computes the layer.

  The reference converts the weights, multiplies every converted weight by the scale, contracts the activations
  with the scaled weights along the axis of 4096, and adds the bias to every (b, s). Entry (b, s, o) of its
  result is therefore

      (∑ k, x[b, s, k] · (w[o, k] · scale)) + bias[o],

  and the layer has the scale outside the sum. The two agree when the activations and the scale are real
  numbers (the weights always are): that is the law that moves a common factor across a finite sum.
-/
import proofs.«112003_j79018808312185_2_alg».proof.Proof.Gen.ReferenceIdeal.Read
import proofs.«112003_j79018808312185_2_alg».proof.Proof.Spec
import proofs.«112003_j79018808312185_2_alg».proof.Proof.ScaleLaw

noncomputable section

namespace Cert.ReferenceIdeal.RefValue

open Cert.ReferenceIdeal Cert.ReferenceIdeal.Gen Cert.ReferenceIdeal.Read Cert.Linear
open Idealize.ShloMosaic Idealize.ShloMosaic.ValueIdx

/-- The scale as a rank-0 array: at its one index, the argument's one entry. -/
theorem scalar_scale_at (sc : S1.Idx → EReal) (j : S_.Idx) :
    val_main_v1 (F := Ideal) sc j = sc (ix1 (0 : Fin 1)) := by
  unfold val_main_v1
  refine shapeCast_apply sc shapeCasts_S1_S_ j (ix1 (0 : Fin 1)) ?_
  rw [Shape.rowMajor_val_one]
  have h : (S_.rowMajor j).val < 1 := (S_.rowMajor j).isLt
  show 0 = (S_.rowMajor j).val
  omega

/-- The operand indices of the reference's contraction and of its bias broadcast, at the result's entry (b, s, o):
    the activations at (b, s, k), the scaled weights at (o, k), the bias at `o`. -/
theorem left_index (b : Fin 4) (s : Fin 2048) (o : Fin 11008) (k : Fin 4096) :
    lidx_main_v4 (ix3 b s o) k = ix3 b s k :=
  funext fun a => Fin.ext (by match a with | ⟨0, _⟩ => rfl | ⟨1, _⟩ => rfl | ⟨2, _⟩ => rfl)
theorem right_index (b : Fin 4) (s : Fin 2048) (o : Fin 11008) (k : Fin 4096) :
    ridx_main_v4 (ix3 b s o) k = ix2 o k :=
  funext fun a => Fin.ext (by match a with | ⟨0, _⟩ => rfl | ⟨1, _⟩ => rfl)
theorem bias_index (b : Fin 4) (s : Fin 2048) (o : Fin 11008) :
    idx_main_v5 (idx_main_v6 (ix3 b s o)) = ix1 o :=
  funext fun a => Fin.ext (by match a with | ⟨0, _⟩ => rfl)

/-- THE REFERENCE IS THE LAYER, for real activations and a real scale. -/
theorem result_eq (x : S4x2048x4096.Idx → EReal) (w : S11008x4096.Idx → BitVec 32) (sc : S1.Idx → EReal) (bias : S11008.Idx → EReal)
    (hx : ∀ j, ∃ r : ℝ, x j = (r : EReal)) (hs : ∃ σ : ℝ, sc (ix1 (0 : Fin 1)) = (σ : EReal)) :
    val_main_v7 (F := Ideal) x w sc bias = linear x w sc bias := by
  funext i
  obtain ⟨b, s, o, rfl⟩ : ∃ (b : Fin 4) (s : Fin 2048) (o : Fin 11008), i = ix3 b s o := ⟨i 0, i 1, i 2, eq_ix3 i⟩
  rw [val_main_v7_apply, val_main_v4_apply, val_main_v6_apply, val_main_v5_apply]
  have hterm : ∀ k : Fin 4096, val_main_v3 (F := Ideal) w sc (ridx_main_v4 (ix3 b s o) k)
      = (((w (ix2 o k)).toInt : ℝ) : EReal) * sc (ix1 (0 : Fin 1)) := fun k => by
    rw [right_index, val_main_v3_apply, val_main_v0_apply, val_main_v2_apply, scalar_scale_at]
    rfl
  have hsum : (∑ k : Fin 4096, x (lidx_main_v4 (ix3 b s o) k) * val_main_v3 (F := Ideal) w sc (ridx_main_v4 (ix3 b s o) k))
      = ∑ k : Fin 4096, x (ix3 b s k) * ((((w (ix2 o k)).toInt : ℝ) : EReal) * sc (ix1 (0 : Fin 1))) :=
    Finset.sum_congr rfl fun k _ => by rw [left_index, hterm]
  have hlaw : (∑ k : Fin 4096, x (ix3 b s k) * ((((w (ix2 o k)).toInt : ℝ) : EReal) * sc (ix1 (0 : Fin 1))))
      = (∑ k : Fin 4096, x (ix3 b s k) * (((w (ix2 o k)).toInt : ℝ) : EReal)) * sc (ix1 (0 : Fin 1)) :=
    sum_mul_scale (fun k => x (ix3 b s k)) (fun k => (w (ix2 o k)).toInt) (sc (ix1 (0 : Fin 1))) (fun k => hx _) hs
  rw [hsum, hlaw, bias_index]
  rfl

end Cert.ReferenceIdeal.RefValue

end
-- ==== Proof.Finite.lean ====
/-
  The precondition says the float inputs are real numbers.

  The precondition compares the absolute value of every entry of the activations, of the scale and of the bias
  with +∞ and takes the conjunction of all the comparisons. An extended real whose absolute value is below +∞
  is neither infinity, so it is a real number. Only the activations and the scale are needed later.
-/
import proofs.«112003_j79018808312185_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- An extended real whose absolute value compares below the pattern of +∞ is a real number. -/
theorem real_of_abs_lt_top (v : EReal)
    (h : Ideal.cmp .olt (max v (-v)) (Ideal.ofBits .f32 0x7F800000#32) = 1#1) : ∃ r : ℝ, v = (r : EReal) := by
  have hinf : Ideal.ofBits .f32 0x7F800000#32 = (⊤ : EReal) := by simp [Ideal.ofBits, Ideal.ieee]
  rw [hinf] at h
  induction v using EReal.rec with
  | bot => simp [Ideal.cmp] at h
  | top => simp [Ideal.cmp] at h
  | coe r => exact ⟨r, rfl⟩

theorem reals_of_pre (x : FVec Ideal S4x2048x4096 .f32) (w : IVec S11008x4096 32) (sc : FVec Ideal S1 .f32) (b : FVec Ideal S11008 .f32)
    (h : fn (F := Ideal) x w sc b = fun _ => 1#1) :
    (∀ j, ∃ r : ℝ, x j = (r : EReal)) ∧ (∀ j, ∃ σ : ℝ, sc j = (σ : EReal)) := by
  have h0 := congrFun h ix0
  dsimp only [fn] at h0
  obtain ⟨h8, -⟩ := IntOp.andi_eq_one.mp h0
  obtain ⟨h3, h7⟩ := IntOp.andi_eq_one.mp h8
  refine ⟨fun j => real_of_abs_lt_top (x j) ?_, fun j => real_of_abs_lt_top (sc j) ?_⟩
  · exact Host.reduce_andi_all _ _ _ _ ix0 h3 j
  · exact Host.reduce_andi_all _ _ _ _ ix0 h7 j

end Cert.Pre_finite_inputs.Finite

end
-- ==== Proof.lean ====
/-
  A quantized linear layer against its plain definition, on the extended reals.

  The arguments are activations `x` of shape [4, 2048, 4096], integer weights `w` of shape [11008, 4096], a
  one-entry scale and a bias of length 11008. The kernel program merges the batch and sequence axes into 8192
  rows, converts the weights, and on an 8 × 43 grid computes, block by block,

      out[r, o] = (∑ k, x[r, k] · w[o, k]) · scale + bias[o],

  then splits the rows back. The reference scales the converted weights first:

      ref[b, s, o] = (∑ k, x[b, s, k] · (w[o, k] · scale)) + bias[o].

  Read exactly, a change of float format is the identity and an integer converts to itself, so the two differ
  only in where the scale stands. The kernel's expression is the layer's own (`Cert.Linear.linear`) whatever
  the inputs; the reference's is equal to it because the activations and the scale are real numbers, which is
  what the precondition says, and on real numbers a common factor moves across a finite sum. The bias may be
  anything: it is added last on both sides.

  The three programs terminate without fault and leave their arguments unchanged: for the two kernel programs
  that is their frame, and for the reference it is its run with the result dropped. The idealized kernel is the
  kernel's own text read exactly: no operation was rewritten, so there is nothing to preserve.
-/
import proofs.«112003_j79018808312185_2_alg».proof.Defs
import proofs.«112003_j79018808312185_2_alg».proof.Proof.Gen.Kernel
import proofs.«112003_j79018808312185_2_alg».proof.Proof.Gen.Kernel.Skeleton
import proofs.«112003_j79018808312185_2_alg».proof.Proof.Gen.Kernel.Launch
import proofs.«112003_j79018808312185_2_alg».proof.Proof.Gen.Kernel.Points
import proofs.«112003_j79018808312185_2_alg».proof.Proof.Gen.Kernel.Frame
import proofs.«112003_j79018808312185_2_alg».proof.Proof.Gen.KernelIdeal
import proofs.«112003_j79018808312185_2_alg».proof.Proof.Gen.KernelIdeal.Skeleton
import proofs.«112003_j79018808312185_2_alg».proof.Proof.Gen.KernelIdeal.Launch
import proofs.«112003_j79018808312185_2_alg».proof.Proof.Gen.KernelIdeal.Points
import proofs.«112003_j79018808312185_2_alg».proof.Proof.Gen.KernelIdeal.Frame
import proofs.«112003_j79018808312185_2_alg».proof.Proof.Gen.ReferenceIdeal
import proofs.«112003_j79018808312185_2_alg».proof.Proof.Gen.Pre_finite_inputs
import proofs.«112003_j79018808312185_2_alg».proof.Proof.Gen.ReferenceIdeal.Run
import proofs.«112003_j79018808312185_2_alg».proof.Proof.Gen.ReferenceIdeal.Read
import proofs.«112003_j79018808312185_2_alg».proof.Proof.KernelRun
import proofs.«112003_j79018808312185_2_alg».proof.Proof.RefValue
import proofs.«112003_j79018808312185_2_alg».proof.Proof.Finite
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does the same program read exactly. -/
theorem frame_kernelIdeal : Cert.frame_KernelIdeal := fun m ρ _ => Cert.KernelIdeal.Gen.frame m ρ

/-- The reference runs and keeps its arguments: its run, with what it computes dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel exactly rewrote none of its operations. -/
theorem preserves : Cert.preserves_Kernel_KernelIdeal := trivial

/-- From memories that agree on the arguments, both programs end with the layer of those arguments in their result
    arrays: the kernel program by its own expression, the reference because the activations and the scale are real
    numbers. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Pre_finite_inputs.Finite.reals_of_pre _ _ _ _ (hpre c)
  rw [(hagree c).1, (hagree c).2.1, (hagree c).2.2.1, (hagree c).2.2.2]
  exact (Cert.ReferenceIdeal.Read.val_main_v7_eq _ _ _ _).trans
    (Cert.ReferenceIdeal.RefValue.result_eq _ _ _ _ hx (hs _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
